-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S1024x256 : Shape := ⟨2, ![1024, 256]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S1x8192, .f32⟩
  | .hbm, ⟨9, _⟩ => ⟨S8192x256, .bf16⟩
  | .hbm, ⟨10, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S8192x256, .bf16⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0_3 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x256_S8192_d1 : S8192x256.ReducesTo [1] S8192
  h_S_ : 0 < S_.numel
  bcast_S_S8192 : S_.BroadcastsInDim S8192 (![] : Fin 0 → Fin S8192.rank)
  shapeCasts_S8192_S1x8192 : S8192.ShapeCasts S1x8192
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1024x256_S1024x256 : S1024x256.ShapeCasts S1024x256
  reduces_S1024x256_S1024 : S1024x256.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 15
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.LibExtReal.lean ====
/-
  Small facts about rows of real numbers read in the extended reals, and about two f32 patterns: what a proof
  needs when a law holds for finite inputs only and its corner is a row of zeros.
-/
import Idealize.ShloMosaic.PureOps.Ideal

noncomputable section

namespace LibExtReal

open Idealize.ShloMosaic

/-- A finite sum of real numbers read in the extended reals is the sum of the readings. -/
theorem coe_sum {ι : Type} (s : Finset ι) (f : ι → ℝ) :
    (∑ k ∈ s, ((f k : ℝ) : EReal)) = ((∑ k ∈ s, f k : ℝ) : EReal) := by
  classical
  refine Finset.induction_on s (by simp) ?_
  intro a s ha ih
  rw [Finset.sum_insert ha, Finset.sum_insert ha, ih, EReal.coe_add]

/-- A sum of squares is non-negative. -/
theorem sumsq_nonneg {n : ℕ} (a : Fin n → ℝ) : 0 ≤ ∑ k, a k * a k :=
  Finset.sum_nonneg fun k _ => mul_self_nonneg (a k)

/-- A row whose squares sum to zero is the zero row. -/
theorem row_zero_of_sumsq_zero {n : ℕ} (a : Fin n → ℝ) (h : ∑ k, a k * a k = 0) (k : Fin n) : a k = 0 :=
  mul_self_eq_zero.mp
    ((Finset.sum_eq_zero_iff_of_nonneg fun k _ => mul_self_nonneg (a k)).mp h k (Finset.mem_univ k))

/-- So its inner product with any row is zero, on either side. -/
theorem inner_zero_left {n : ℕ} (a b : Fin n → ℝ) (h : ∑ k, a k * a k = 0) : ∑ k, a k * b k = 0 :=
  Finset.sum_eq_zero fun k _ => by rw [row_zero_of_sumsq_zero a h k, zero_mul]

theorem inner_zero_right {n : ℕ} (a b : Fin n → ℝ) (h : ∑ k, b k * b k = 0) : ∑ k, a k * b k = 0 :=
  Finset.sum_eq_zero fun k _ => by rw [row_zero_of_sumsq_zero b h k, mul_zero]

/-- An extended real whose absolute value max(x, −x) is below +∞ is a real number. -/
theorem real_of_abs_lt_top (x : EReal) (h : max x (-x) < ⊤) : ∃ r : ℝ, x = r := by
  induction x using EReal.rec with
  | bot => simp at h
  | coe r => exact ⟨r, rfl⟩
  | top => simp at h

/-- The f32 pattern with all exponent bits set and no fraction is +∞. -/
theorem inf_f32 : Ideal.ofBits .f32 0x7F800000#32 = ⊤ := by simp [Ideal.ofBits, Ideal.ieee]

/-- The f32 pattern of 1.0 is the extended real 1. -/
theorem one_f32 : Ideal.ofBits .f32 0x3F800000#32 = 1 := by
  simp [Ideal.ofBits, Ideal.ieee, -EReal.coe_mul]; norm_num

end LibExtReal

end
-- ==== Proof.CosineLaw.lean ====
/-
  The scalar law behind a clamped cosine similarity on the extended reals.

  For two rows a, b of real numbers write A = Σ a_k², B = Σ b_k² and g = Σ a_k b_k.  One program forms
  g · ((√A)⁻¹ · (1 / √B)), the other g / (√A · √B); both then take the maximum with a non-negative ε.
  Where both rows are non-zero the two expressions are the same real number.  Where a row vanishes the
  inner product g vanishes with it (a sum of squares is zero only if every term is), and then the first
  expression is 0 · (something, possibly +∞) = 0 while the second is the quotient 0 / 0, whose value on
  the extended reals is −∞ by convention: they differ, but the maximum with ε ≥ 0 is ε for both.
-/
import proofs.«103013_j23201413333422_2_alg».proof.Proof.LibExtReal
import Idealize.ShloMosaic.PureOps.Ideal

noncomputable section

namespace CosineLaw

open Idealize.ShloMosaic LibExtReal

/-- The law on real rows: the product with the two reciprocal norms and the quotient by the product of
    the norms have the same maximum with a non-negative ε. -/
theorem clamp_eq_real {n : ℕ} (a b : Fin n → ℝ) (e : EReal) (he : 0 ≤ e) :
    max (((∑ k, a k * b k : ℝ) : EReal)
          * (Ideal.rsqrt ((∑ k, a k * a k : ℝ) : EReal) * Ideal.div 1 (Ideal.sqrt ((∑ k, b k * b k : ℝ) : EReal)))) e
    = max (Ideal.div ((∑ k, a k * b k : ℝ) : EReal)
          (Ideal.sqrt ((∑ k, a k * a k : ℝ) : EReal) * Ideal.sqrt ((∑ k, b k * b k : ℝ) : EReal))) e := by
  have hA0 : 0 ≤ ∑ k, a k * a k := sumsq_nonneg a
  have hB0 : 0 ≤ ∑ k, b k * b k := sumsq_nonneg b
  have sA : Ideal.sqrt ((∑ k, a k * a k : ℝ) : EReal) = ((Real.sqrt (∑ k, a k * a k) : ℝ) : EReal) := by
    rw [Ideal.sqrt_coe, if_neg (not_lt.mpr hA0)]
  have sB : Ideal.sqrt ((∑ k, b k * b k : ℝ) : EReal) = ((Real.sqrt (∑ k, b k * b k) : ℝ) : EReal) := by
    rw [Ideal.sqrt_coe, if_neg (not_lt.mpr hB0)]
  rw [sA, sB]
  have junk : max (Ideal.div 0 0) e = max 0 e := by
    rw [Ideal.div, if_pos rfl, if_neg (lt_irrefl _), max_eq_right he, max_eq_right bot_le]
  by_cases hAz : ∑ k, a k * a k = 0
  · -- the first row vanishes
    rw [inner_zero_left a b hAz, hAz, Real.sqrt_zero, EReal.coe_zero, zero_mul, zero_mul, junk]
  · by_cases hBz : ∑ k, b k * b k = 0
    · -- the second row vanishes
      rw [inner_zero_right a b hBz, hBz, Real.sqrt_zero, EReal.coe_zero, zero_mul, mul_zero, junk]
    · -- neither does: real arithmetic
      have hsA : 0 < Real.sqrt (∑ k, a k * a k) := Real.sqrt_pos.mpr (lt_of_le_of_ne hA0 (Ne.symm hAz))
      have hsB : 0 < Real.sqrt (∑ k, b k * b k) := Real.sqrt_pos.mpr (lt_of_le_of_ne hB0 (Ne.symm hBz))
      have e1 : Ideal.div 1 ((Real.sqrt (∑ k, b k * b k) : ℝ) : EReal)
          = (((Real.sqrt (∑ k, b k * b k))⁻¹ : ℝ) : EReal) := by
        rw [Ideal.div_coe (ne_of_gt hsB), one_mul, one_div]
      have e2 : Ideal.rsqrt ((∑ k, a k * a k : ℝ) : EReal) = (((Real.sqrt (∑ k, a k * a k))⁻¹ : ℝ) : EReal) := by
        rw [Ideal.rsqrt_coe, if_neg (not_lt.mpr hA0), if_neg hAz]
      have e3 : Ideal.div ((∑ k, a k * b k : ℝ) : EReal)
            (((Real.sqrt (∑ k, a k * a k) : ℝ) : EReal) * ((Real.sqrt (∑ k, b k * b k) : ℝ) : EReal))
          = (((∑ k, a k * b k) * (Real.sqrt (∑ k, a k * a k) * Real.sqrt (∑ k, b k * b k))⁻¹ : ℝ) : EReal) := by
        rw [← EReal.coe_mul, Ideal.div_coe (ne_of_gt (mul_pos hsA hsB)), ← EReal.coe_mul, one_div]
      rw [e1, e2, e3, ← EReal.coe_mul, ← EReal.coe_mul, mul_inv]

/-- The same for rows of extended reals that are finite: the form the two programs' entries take. -/
theorem clamp_eq {n : ℕ} (x y : Fin n → EReal) (hx : ∀ k, ∃ r : ℝ, x k = r) (hy : ∀ k, ∃ r : ℝ, y k = r)
    (e : EReal) (he : 0 ≤ e) :
    max ((∑ k, x k * y k) * (Ideal.rsqrt (∑ k, x k * x k) * Ideal.div 1 (Ideal.sqrt (∑ k, y k * y k)))) e
    = max (Ideal.div (∑ k, x k * y k) (Ideal.sqrt (∑ k, x k * x k) * Ideal.sqrt (∑ k, y k * y k))) e := by
  choose a ha using hx
  choose b hb using hy
  have hxx : (∑ k, x k * x k) = ((∑ k, a k * a k : ℝ) : EReal) := by
    rw [← coe_sum]; exact Finset.sum_congr rfl fun k _ => by rw [ha k, EReal.coe_mul]
  have hyy : (∑ k, y k * y k) = ((∑ k, b k * b k : ℝ) : EReal) := by
    rw [← coe_sum]; exact Finset.sum_congr rfl fun k _ => by rw [hb k, EReal.coe_mul]
  have hxy : (∑ k, x k * y k) = ((∑ k, a k * b k : ℝ) : EReal) := by
    rw [← coe_sum]; exact Finset.sum_congr rfl fun k _ => by rw [ha k, hb k, EReal.coe_mul]
  rw [hxx, hyy, hxy]
  exact clamp_eq_real a b e he

end CosineLaw

end
-- ==== Proof.CosineSpec.lean ====
/-
  The clamped cosine-similarity matrix of the rows of X : [8192, 256], as one function of X, in the two
  arrangements the programs compute it in.

  With s(n) = Σ_k X(n,k)² and g(n,m) = Σ_k X(n,k)·X(m,k), entry (n, m) is
      max (g(n,m) · (rsqrt s(n) · (1 / √s(m)))) ε      — the product with two reciprocal norms, and
      max (g(n,m) / (√s(n) · √s(m))) ε                  — the quotient by the product of the norms.
  On finite X the two are the same matrix (the scalar law, row n against row m).
-/
import proofs.«103013_j23201413333422_2_alg».proof.Proof.CosineLaw
import Idealize.ShloMosaic.Lib.ValueIdx

noncomputable section

namespace CosineSpec

open Idealize.ShloMosaic Idealize.ShloMosaic.ValueIdx

/-- The input matrix and the similarity matrix, as index-to-value functions over the literal shapes. -/
abbrev Mat := (⟨2, ![8192, 256]⟩ : Shape).Idx → EReal
abbrev Sim := (⟨2, ![8192, 8192]⟩ : Shape).Idx → EReal

/-- The sum of the squares of row n. -/
def rowSq (X : Mat) (n : Fin 8192) : EReal := ∑ k : Fin 256, X (ix2 n k) * X (ix2 n k)

/-- The inner product of rows n and m. -/
def gram (X : Mat) (n m : Fin 8192) : EReal := ∑ k : Fin 256, X (ix2 n k) * X (ix2 m k)

/-- The clamp's lower bound: the f32 nearest to 10⁻⁶, the same word in both programs. -/
def eps : EReal := Ideal.ofBits .f32 0x358637BD#32

/-- It is a positive dyadic rational; only its sign matters here. -/
theorem eps_nonneg : 0 ≤ eps := by
  unfold eps
  simp [Ideal.ofBits, Ideal.ieee, -EReal.coe_mul]

/-- Entry (n, m) as the inner product times the two reciprocal norms. -/
def viaReciprocals (X : Mat) : Sim := fun i =>
  max (gram X (i 0) (i 1) * (Ideal.rsqrt (rowSq X (i 0)) * Ideal.div 1 (Ideal.sqrt (rowSq X (i 1))))) eps

/-- Entry (n, m) as the inner product over the product of the norms. -/
def viaQuotient (X : Mat) : Sim := fun i =>
  max (Ideal.div (gram X (i 0) (i 1)) (Ideal.sqrt (rowSq X (i 0)) * Ideal.sqrt (rowSq X (i 1)))) eps

/-- On a finite matrix the two arrangements agree entry by entry. -/
theorem viaReciprocals_eq_viaQuotient (X : Mat) (hX : ∀ i, ∃ r : ℝ, X i = r) : viaReciprocals X = viaQuotient X :=
  funext fun i => CosineLaw.clamp_eq (fun k : Fin 256 => X (ix2 (i 0) k)) (fun k : Fin 256 => X (ix2 (i 1) k))
    (fun _ => hX _) (fun _ => hX _) eps eps_nonneg

end CosineSpec

end
-- ==== Proof.LibColumn.lean ====
/-
  The keepdims column forms of two layout operations, read at an index: what a row reduction kept as a column
  (`jnp.sum(…, axis=1, keepdims=True)`) goes through before it meets a matrix again.
-/
import Idealize.ShloMosaic.Lib.Pipeline.Value
import Idealize.ShloMosaic.Lib.ValueIdx

noncomputable section

namespace LibColumn

open Idealize.ShloMosaic Idealize.ShloMosaic.ValueIdx

/-- An `[a]` array cast to the column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end LibColumn

end
-- ==== Proof.BodyValue.lean ====
/-
  The kernel body's stored value, read at an index.

  On a [1024, 256] block x of rows, the [1024, 256] block y of rows it is compared with, and the [1, 1024] block
  w of reciprocal norms that belongs to y's rows, the body stores, at (p, q),
      max ((Σ_k x(p,k)·y(q,k)) · (rsqrt (Σ_k x(p,k)²) · w(0,q))) ε :
  the matrix unit's product contracts the second axis of both blocks, the lane sum runs over a row of x·x, and
  the two broadcasts spread the row's reciprocal norm along columns and w along rows.
-/
import proofs.«103013_j23201413333422_2_alg».proof.Proof.Gen.KernelIdeal.Skeleton
import proofs.«103013_j23201413333422_2_alg».proof.Proof.CosineSpec
import proofs.«103013_j23201413333422_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx LibColumn

/-! ## The lane sum and the matrix product -/

/-- The sum over the lanes of row `p`. -/
theorem rowSum_apply (v : FVec Ideal S1024x256 .f32) (p : Fin 1024) :
    multiReduction .add [1] S1024 v 0x00000000#32 reduces_S1024x256_S1024 (.inl rfl) rfl (ix1 p)
      = ∑ k : Fin 256, v (ix2 p k) :=
  (Ideal.multiReduction_add_single v 0x00000000#32 reduces_S1024x256_S1024 (.inl rfl) rfl (ix1 p)).trans
    (Finset.sum_congr rfl fun k _ => congrArg v (funext fun a => Fin.ext (by
      match a with
      | ⟨0, _⟩ => rfl
      | ⟨1, _⟩ => rfl)))

theorem lhs_0 (i : S1024x1024.Idx) (c : dot_S1024x256_S1024x256_S1024x1024_1_1_0_0_n_n.contr.Idx) : (dot_S1024x256_S1024x256_S1024x1024_1_1_0_0_n_n.lhsIdx i c 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
theorem lhs_1 (i : S1024x1024.Idx) (c : dot_S1024x256_S1024x256_S1024x1024_1_1_0_0_n_n.contr.Idx) : (dot_S1024x256_S1024x256_S1024x1024_1_1_0_0_n_n.lhsIdx i c 1).val = (c ⟨0, by decide⟩).val :=
  dot_S1024x256_S1024x256_S1024x1024_1_1_0_0_n_n.lhsIdx_val_of_single rfl i c
theorem rhs_0 (i : S1024x1024.Idx) (c : dot_S1024x256_S1024x256_S1024x1024_1_1_0_0_n_n.contr.Idx) : (dot_S1024x256_S1024x256_S1024x1024_1_1_0_0_n_n.rhsIdx i c 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
theorem rhs_1 (i : S1024x1024.Idx) (c : dot_S1024x256_S1024x256_S1024x1024_1_1_0_0_n_n.contr.Idx) : (dot_S1024x256_S1024x256_S1024x1024_1_1_0_0_n_n.rhsIdx i c 1).val = (c ⟨0, by decide⟩).val :=
  dot_S1024x256_S1024x256_S1024x1024_1_1_0_0_n_n.rhsIdx_val_of_single rfl i c

/-- The product into a zero accumulator, contracting axis 1 of both operands: entry `(p, q)` is the inner product
    of row `p` of the left block with row `q` of the right one. -/
theorem product_apply (l r : FVec Ideal S1024x256 .bf16) (p q : Fin 1024) :
    matmul dot_S1024x256_S1024x256_S1024x1024_1_1_0_0_n_n none l r (constant (F := Ideal) S1024x1024 .f32 0x00000000#32) (ix2 p q)
      = ∑ k : Fin 256, l (ix2 p k) * r (ix2 q k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs_0 _ _
    | ⟨1, _⟩ => exact (lhs_1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs_0 _ _
    | ⟨1, _⟩ => exact (rhs_1 _ _).trans hk)
  rw [el, er]

/-! ## The stored value -/

/-- What the body stores at `(p, q)`, from its three loaded blocks. -/
theorem stored_apply (x : FVec Ideal S1024x256 .f32) (w : FVec Ideal S1x1024 .f32) (y : FVec Ideal S1024x256 .bf16)
    (p q : Fin 1024) :
    k0_pay1 (F := Ideal) x w y (ix2 p q)
      = max ((∑ k : Fin 256, x (ix2 p k) * y (ix2 q k))
          * (Ideal.rsqrt (∑ k : Fin 256, x (ix2 p k) * x (ix2 p k)) * w (ix2 (0 : Fin 1) q))) CosineSpec.eps := by
  unfold k0_pay1
  simp only [maximumf_apply, mulf_apply, broadcast_apply]
  rw [product_apply, broadcastTo_a1_ab_apply, broadcastTo_1b_ab_apply, shapeCast_self, shapeCast_self]
  show max ((∑ k : Fin 256, x (ix2 p k) * y (ix2 q k))
      * (Ideal.rsqrt (shapeCast S1024x1 (multiReduction .add [1] S1024 (mulf x x) 0x00000000#32 reduces_S1024x256_S1024 (.inl rfl) rfl)
            shapeCasts_S1024_S1024x1 (ix2 p (0 : Fin 1)))
          * w (ix2 (0 : Fin 1) q))) CosineSpec.eps = _
  rw [shapeCast_a_a1_apply, rowSum_apply]
  rfl

/-- So when the row block is rows of `X` starting at row `n - p`, the compared block rows of `X` starting at row
    `m - q`, and the weights the reciprocal norms of those rows, the stored value at `(p, q)` is the similarity
    of rows `n` and `m` of `X`, in the arrangement with two reciprocal norms. -/
theorem stored_eq_spec (X : FVec Ideal S8192x256 .f32) (x : FVec Ideal S1024x256 .f32) (w : FVec Ideal S1x1024 .f32)
    (y : FVec Ideal S1024x256 .bf16) (p q : Fin 1024) (n m : Fin 8192)
    (hx : ∀ k : Fin 256, x (ix2 p k) = X (ix2 n k))
    (hy : ∀ k : Fin 256, y (ix2 q k) = X (ix2 m k))
    (hw : w (ix2 (0 : Fin 1) q) = Ideal.div 1 (Ideal.sqrt (CosineSpec.rowSq X m))) :
    k0_pay1 (F := Ideal) x w y (ix2 p q) = CosineSpec.viaReciprocals X (ix2 n m) := by
  rw [stored_apply]
  simp only [hx, hy, hw]
  rfl

end Cert.KernelIdeal.Body

end
-- ==== Proof.HostPrefix.lean ====
/-
  What the host computes before the kernel is launched, as the kernel's windows find it.

  Two arrays are prepared from the argument X : [8192, 256]: a narrower-format copy of X (the same extended reals),
  and the row [1, 8192] of reciprocal norms, whose entry (0, n) is 1 / √(0 + Σ_k X(n,k)²).
-/
import proofs.«103013_j23201413333422_2_alg».proof.Proof.Gen.KernelIdeal.Frame
import proofs.«103013_j23201413333422_2_alg».proof.Proof.CosineSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

namespace Cert.KernelIdeal.HostPrefix

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The row of reciprocal norms as the host's operations compose it: the sum of squares along each row, its square
    root, the quotient of a splat of 1 by it, laid out as one row. -/
def recipNorms (X : FVec Ideal S8192x256 .f32) : FVec Ideal S1x8192 .f32 :=
  shapeCast S1x8192
    (Host.divf (F := Ideal) (broadcastInDim S8192 ![] bcast_S_S8192 (constant (F := Ideal) S_ .f32 0x3F800000#32))
      (Host.sqrt (F := Ideal) (Host.reduceAdd (F := Ideal) (mulf (F := Ideal) X X) (constant (F := Ideal) S_ .f32 0x00000000#32)
        reducesTo_S8192x256_S8192_d1 h_S_)))
    shapeCasts_S8192_S1x8192

/-- The kernel's second operand, as the region finds it, is the argument in the narrower format. -/
theorem resident_copy (c : Dev nD) :
    (V m c main_v6 : S8192x256.Idx → EReal)
      = (truncf (F := Ideal) .bf16 (m ((c : Thread nD τ).loc main_arg0) : FVec Ideal S8192x256 .f32) bitsLt_bf16_f32 : FVec Ideal S8192x256 .bf16) := by
  dsimp only [V, hostOps0]
  after_results <;> rfl

/-- Its third operand is the row of reciprocal norms of the argument's rows. -/
theorem recip_row (c : Dev nD) :
    (V m c main_v5 : S1x8192.Idx → EReal) = recipNorms (m ((c : Thread nD τ).loc main_arg0) : FVec Ideal S8192x256 .f32) := by
  dsimp only [V, hostOps0]
  after_results <;> rfl

/-- The host's sum along a row, at row `n`: the initial value plus the sum over the row's entries. -/
theorem hostRowSum_apply (x : FVec Ideal S8192x256 .f32) (init : FVec Ideal S_ .f32) (n : Fin 8192) :
    Host.reduceAdd (F := Ideal) x init reducesTo_S8192x256_S8192_d1 h_S_ (ix1 n)
      = init (Shape.Idx.first h_S_) + ∑ k : Fin 256, x (ix2 n k) := by
  simp only [Host.reduceAdd, Ideal.hostReduceAdd_def]
  rw [Ideal.hostReduceAdd_single reducesTo_S8192x256_S8192_d1 (by decide)]
  refine congrArg (_ + ·) (Finset.sum_congr rfl fun k _ => ?_)
  exact congrArg x (funext fun a => Fin.ext (by match a with | ⟨0, _⟩ => rfl | ⟨1, _⟩ => rfl))

/-- Entry `(0, n)` of the row of reciprocal norms is `1 / √(Σ_k X(n,k)²)`. -/
theorem recipNorms_apply (X : FVec Ideal S8192x256 .f32) (n : Fin 8192) :
    recipNorms X (ix2 (0 : Fin 1) n) = Ideal.div 1 (Ideal.sqrt (CosineSpec.rowSq X n)) := by
  unfold recipNorms
  rw [shapeCast_a_1a_apply]
  show Ideal.div (broadcastInDim S8192 ![] bcast_S_S8192 (constant (F := Ideal) S_ .f32 0x3F800000#32) (ix1 n))
      (Ideal.sqrt (Host.reduceAdd (F := Ideal) (mulf (F := Ideal) X X) (constant (F := Ideal) S_ .f32 0x00000000#32)
        reducesTo_S8192x256_S8192_d1 h_S_ (ix1 n))) = _
  rw [broadcastInDim_apply _ bcast_S_S8192 _ (ix1 n) ix0 (fun a => a.elim0), hostRowSum_apply]
  show Ideal.div (Ideal.ofBits .f32 0x3F800000#32)
      (Ideal.sqrt (Ideal.ofBits .f32 0x00000000#32 + ∑ k : Fin 256, X (ix2 n k) * X (ix2 n k))) = _
  rw [LibExtReal.one_f32, Ideal.ofBits_zero_f32, zero_add]
  rfl

end Cert.KernelIdeal.HostPrefix

end
-- ==== Proof.KernelValue.lean ====
/-
  The kernel's result array, as one function of its argument.

  The grid has 8 × 8 points; point (i, j) writes block (i, j) of the [8192, 8192] result, 1024 × 1024 entries.  At
  that point the body sees rows 1024·i … 1024·i + 1023 of X, the whole narrower-format copy of X, of which it reads rows
  1024·j … 1024·j + 1023, and entries 1024·j … 1024·j + 1023 of the row of reciprocal norms.  So entry (p, q) of
  the block it stores is the similarity of rows 1024·i + p and 1024·j + q of X: every block is the restriction of
  one matrix, and the 64 blocks tile the result.
-/
import proofs.«103013_j23201413333422_2_alg».proof.Proof.Gen.KernelIdeal.Value
import proofs.«103013_j23201413333422_2_alg».proof.Proof.BodyValue
import proofs.«103013_j23201413333422_2_alg».proof.Proof.HostPrefix
import Idealize.ShloMosaic.Lib.Pipeline.Value
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-! ## What the body leaves in the output's staging buffer -/

section AnyValues
variable {F : FTy → Type} [FloatOps F]

/-- The body's one store covers the staging buffer, so the buffer ends holding the stored value: the body's
    arithmetic of the row block, the weights, and the rows of the resident copy from the column block's first row on. -/
theorem staged_eq (c : Dev nD) (i : grid0.Coords) (arg2 : Memref sig .tc .vmem S1024x256 .f32) (harg2 : arg2.IsWhole)
    (arg3 : Memref sig .tc .vmem S8192x256 .bf16) (harg3 : arg3.IsWhole) (arg4 : Memref sig .tc .vmem S1x1024 .f32) (harg4 : arg4.IsWhole)
    (arg5 : Memref sig .tc .vmem S1024x1024 .f32) (harg5 : arg5.IsWhole)
    (x0 : Vec F S1024x256 .f32) (x1 : Vec F S8192x256 .bf16) (x2 : Vec F S1x1024 .f32) :
    out0_A_3 c i arg2 harg2 arg3 harg3 arg4 harg4 arg5 harg5 x0 x1 x2
      = k0_pay1 x0 x2 (View.ld x1 (Rect.unit (s := S8192x256) (k0_off1 i) S1024x256.size (k0_off1_inb i))) := by
  unfold out0_A_3
  rw [View.read_writes_eq_canon _ _ _ (cover0_A_3 c i arg2 harg2 arg3 harg3 arg4 harg4 arg5 harg5 x0 x1 x2)]
  unfold kernelRun0_A
  dsimp only
  rw [View.canon_unit_zero hz]
  simp only [View.readAt_eq_ld, harg2.read_unread, harg3.read_unread, harg4.read_unread,
    View.ld_unit_zero (S := S1024x256) hz, View.ld_unit_zero (S := S1x1024) hz]

end AnyValues

/-! ## Where each window's block sits, point by point -/

/-- The index maps, decided over the 64 points: the row block moves with the output's block row, the weights with its
    block column, the resident copy stays, the body's row offset into it is the block column times 1024, and the
    output's block indices range over 8 × 8. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = win0_3.index t (1 : Fin 2)
    ∧ k0_off1 (grid0.coords t) (0 : Fin 2) = win0_3.index t (1 : Fin 2) * 1024 ∧ k0_off1 (grid0.coords t) (1 : Fin 2) = 0
    ∧ win0_3.index t (0 : Fin 2) < 8 ∧ win0_3.index t (1 : Fin 2) < 8 :=
  (by decide +kernel : ∀ t : Fin grid0.N, _)

/-- Every block of the 8 × 8 tiling is some point's. -/
theorem idx_onto : ∀ (q0 q1 : Fin 8), ∃ t : Fin cfg0.N, win0_3.index t = ![q0.val, q1.val] :=
  (by decide +kernel : ∀ (q0 q1 : Fin 8), ∃ t : Fin grid0.N, win0_3.index t = ![q0.val, q1.val])

variable (m : (ℓ : Loc nD τ sig) → Buf (Elt Ideal) ℓ) (ρ : Dev nD → PrngReg)

/-- The argument on core `c`, as a matrix. -/
abbrev arg (c : Dev nD) : FVec Ideal S8192x256 .f32 := m ((c : Thread nD τ).loc main_arg0)

/-! ## What a point writes back -/

/-- What point `t` writes back is block `t` of the similarity matrix of the argument. -/
theorem flushed_eq (c : Dev nD) (t : Fin cfg0.N) :
    (dats m 0 c).flushed 3 t
      = ((cfg0.win 3).blk t).view.read (Elt Ideal) (CosineSpec.viaReciprocals (arg m c)) := by
  rw [Value.flushed3_A m c t, staged_eq c (grid0.coords t) (ms0_0 t) (hs0_0 t) (ms0_1 t) (hs0_1 t) (ms0_2 t) (hs0_2 t)
    (ms0_3 t) (hs0_3 t) (iblk m c 0 t) (iblk m c 1 t) (iblk m c 2 t)]
  obtain ⟨e00, e01, e10, e11, e20, e21, eo0, eo1, b0, b1⟩ := idx_facts t
  funext j
  obtain ⟨p, q, rfl⟩ : ∃ (p q : Fin 1024), j = ix2 p q := ⟨j 0, j 1, eq_ix2 j⟩
  have hp : p.val < 1024 := p.isLt
  have hq : q.val < 1024 := q.isLt
  show k0_pay1 (F := Ideal) (iblk m c 0 t) (iblk m c 2 t)
      (View.ld (iblk m c 1 t) (Rect.unit (s := S8192x256) (k0_off1 (grid0.coords t)) S1024x256.size (k0_off1_inb (grid0.coords t))))
      (ix2 p q)
    = CosineSpec.viaReciprocals (arg m c) (((cfg0.win 3).blk t).view.emb (ix2 p q))
  refine (Body.stored_eq_spec (arg m c) (iblk m c 0 t) (iblk m c 2 t)
      (View.ld (iblk m c 1 t) (Rect.unit (s := S8192x256) (k0_off1 (grid0.coords t)) S1024x256.size (k0_off1_inb (grid0.coords t))))
      p q ⟨win0_3.index t (0 : Fin 2) * 1024 + p.val, by omega⟩ ⟨win0_3.index t (1 : Fin 2) * 1024 + q.val, by omega⟩ ?_ ?_ ?_).trans ?_
  · -- the row block: rows of the argument from row (block row) · 1024 on
    intro k
    show V m c main_arg0 (((cfg0.win 0).blk t).view.emb (ix2 p k)) = m ((c : Thread nD τ).loc main_arg0) _
    rw [V_main_arg0]
    refine congrArg (m ((c : Thread nD τ).loc main_arg0)) (funext fun a => Fin.ext ?_)
    match a with
    | ⟨0, _⟩ =>
      show win0_0.index t (0 : Fin 2) * 1024 + 1 * p.val = win0_3.index t (0 : Fin 2) * 1024 + p.val
      rw [e00]; omega
    | ⟨1, _⟩ =>
      show win0_0.index t (1 : Fin 2) * 256 + 1 * k.val = k.val
      rw [e01]; omega
  · -- the compared block: rows of the resident copy, which is the argument, from row (block column) · 1024 on
    intro k
    show V m c main_v6 (((cfg0.win 1).blk t).view.emb
        ((Rect.unit (s := S8192x256) (k0_off1 (grid0.coords t)) S1024x256.size (k0_off1_inb (grid0.coords t))).idx (ix2 q k)))
      = m ((c : Thread nD τ).loc main_arg0) _
    rw [HostPrefix.resident_copy m c]
    show m ((c : Thread nD τ).loc main_arg0) _ = m ((c : Thread nD τ).loc main_arg0) _
    refine congrArg (m ((c : Thread nD τ).loc main_arg0)) (funext fun a => Fin.ext ?_)
    match a with
    | ⟨0, _⟩ =>
      show win0_1.index t (0 : Fin 2) * 8192 + 1 * (k0_off1 (grid0.coords t) (0 : Fin 2) + 1 * q.val)
        = win0_3.index t (1 : Fin 2) * 1024 + q.val
      rw [e10, eo0]; omega
    | ⟨1, _⟩ =>
      show win0_1.index t (1 : Fin 2) * 256 + 1 * (k0_off1 (grid0.coords t) (1 : Fin 2) + 1 * k.val) = k.val
      rw [e11, eo1]; omega
  · -- the weights: the reciprocal norms of those same rows
    show V m c main_v5 (((cfg0.win 2).blk t).view.emb (ix2 (0 : Fin 1) q)) = _
    rw [HostPrefix.recip_row m c]
    have he : ((cfg0.win 2).blk t).view.emb (ix2 (0 : Fin 1) q)
        = ix2 (0 : Fin 1) (⟨win0_3.index t (1 : Fin 2) * 1024 + q.val, by omega⟩ : Fin 8192) :=
      funext fun a => Fin.ext (by
        match a with
        | ⟨0, _⟩ =>
          show win0_2.index t (0 : Fin 2) * 1 + 1 * 0 = 0
          rw [e20]
        | ⟨1, _⟩ =>
          show win0_2.index t (1 : Fin 2) * 1024 + 1 * q.val = win0_3.index t (1 : Fin 2) * 1024 + q.val
          rw [e21]; omega)
    rw [he]
    exact HostPrefix.recipNorms_apply _ _
  · -- and (block row · 1024 + p, block column · 1024 + q) is where the block's (p, q) sits in the result
    refine congrArg (CosineSpec.viaReciprocals (arg m c)) (funext fun a => Fin.ext ?_)
    match a with
    | ⟨0, _⟩ =>
      show win0_3.index t (0 : Fin 2) * 1024 + p.val = win0_3.index t (0 : Fin 2) * 1024 + 1 * p.val
      omega
    | ⟨1, _⟩ =>
      show win0_3.index t (1 : Fin 2) * 1024 + q.val = win0_3.index t (1 : Fin 2) * 1024 + 1 * q.val
      omega

/-! ## The blocks tile the result -/

/-- An index of the result is in point `t`'s block iff each coordinate is in the block's range on its axis. -/
theorem mem_blk (t : Fin cfg0.N) (i : S8192x8192.Idx) :
    i ∈ ((cfg0.win 3).blk t).view.set
      ↔ ∀ a : Fin 2, win0_3.index t a * S1024x1024.size a ≤ (i a).val
          ∧ (i a).val < win0_3.index t a * S1024x1024.size a + S1024x1024.size a := by
  show i ∈ ((View.whole main_v7).slice (win0_3.rect t)).set ↔ _
  rw [View.set_slice_whole, Rect.mem_set_unit]
  exact Iff.rfl

/-- Entry (n, m) lies in the block of the point whose block indices are (n / 1024, m / 1024), and every point writes back. -/
theorem covered (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-! ## The result array, and the run -/

/-- After the run the result array is the similarity matrix of the argument. -/
theorem final (c : Dev nD) : (dats m 0 c).arrAt 3 cfg0.N = CosineSpec.viaReciprocals (arg m c) :=
  (dats m 0 c).arrAt_eq_of_cover 3 (CosineSpec.viaReciprocals (arg m c)) (fun t _ => flushed_eq m c t) covered

/-- Every weakly fair execution of the program terminates with the result array at the similarity matrix of the
    argument and the argument unchanged. -/
theorem run : θ_run defs (onTc (τ := τ) (main (F := Ideal))) ⟨m, fun _ => 0, ρ⟩ fun r => ∀ c : Dev nD,
      r.2.mem ((c : Thread nD τ).loc main_v7) = CosineSpec.viaReciprocals (arg m c)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.ReferenceValue.lean ====
/-
  The reference, read at an index.  Its last operation's value at (n, m) is
      max ((Σ_k X(n,k)·X(m,k)) / (√(0 + Σ_k X(n,k)²) · √(0 + Σ_k X(m,k)²))) ε :
  the contraction over the shared axis, the two norms broadcast along rows and along columns, their
  product, the quotient and the clamp.  That is the quotient arrangement of the specification.
-/
import proofs.«103013_j23201413333422_2_alg».proof.Proof.Gen.ReferenceIdeal.Read
import proofs.«103013_j23201413333422_2_alg».proof.Proof.CosineSpec
import Idealize.ShloMosaic.PureOps.Ideal.Laws

noncomputable section

namespace Cert.ReferenceIdeal.RefValue

open Cert.ReferenceIdeal Cert.ReferenceIdeal.Read Idealize.ShloMosaic Idealize.ShloMosaic.ValueIdx

/-- The reference's result, as a function of its argument, is the quotient arrangement. -/
theorem result_eq (X : (⟨S8192x256, .f32⟩ : BufTy).Contents (Elt Ideal)) :
    val_main_v11 (F := Ideal) X = CosineSpec.viaQuotient X := by
  funext i
  -- the contraction reads row (i 0) on the left and row (i 1) on the right
  have el : ∀ k : Fin 256, lidx_main_v3 i k = ix2 (n0 := 8192) (n1 := 256) (i 0) k := fun k =>
    funext fun a => Fin.ext (by match a with | ⟨0, _⟩ => rfl | ⟨1, _⟩ => rfl)
  have er : ∀ k : Fin 256, ridx_main_v3 i k = ix2 (n0 := 8192) (n1 := 256) (i 1) k := fun k =>
    funext fun a => Fin.ext (by match a with | ⟨0, _⟩ => rfl | ⟨1, _⟩ => rfl)
  -- the norm broadcast along a row is that of row (i 0), the one broadcast along a column that of row (i 1)
  have e0 : ∀ k : Fin 256, idx_main_v1 (idx_main_v4 (idx_main_v6 i)) k = ix2 (n0 := 8192) (n1 := 256) (i 0) k := fun k =>
    funext fun a => Fin.ext (by match a with | ⟨0, _⟩ => rfl | ⟨1, _⟩ => rfl)
  have e1 : ∀ k : Fin 256, idx_main_v1 (idx_main_v5 (idx_main_v7 i)) k = ix2 (n0 := 8192) (n1 := 256) (i 1) k := fun k =>
    funext fun a => Fin.ext (by match a with | ⟨0, _⟩ => rfl | ⟨1, _⟩ => rfl)
  rw [val_main_v11_apply, val_main_v9_apply, val_main_v3_apply, val_main_v8_apply, val_main_v6_apply, val_main_v4_apply,
    val_main_v2_apply, val_main_v1_apply, val_main_v7_apply, val_main_v5_apply, val_main_v2_apply, val_main_v1_apply,
    val_main_v10_apply, val_main_cst_0_apply, val_main_cst_apply]
  simp only [val_main_v0_apply, el, er, e0, e1, Ideal.maximumf_def, Ideal.hostDivf_def, Ideal.mulf_def,
    Ideal.hostUnary_sqrt_def, Ideal.ofBits_def, Ideal.ofBits_zero_f32, zero_add]
  rfl

end Cert.ReferenceIdeal.RefValue

end
-- ==== Proof.FiniteInputs.lean ====
/-
  What the precondition says: every entry of the argument is a real number.

  The precondition compares |x| with +∞ entry by entry and takes the conjunction over the whole array.  An extended
  real whose absolute value max(x, −x) lies strictly below +∞ is neither +∞ nor −∞.
-/
import proofs.«103013_j23201413333422_2_alg».proof.Pre_finite_inputs
import proofs.«103013_j23201413333422_2_alg».proof.Proof.LibExtReal
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Idealize.ShloMosaic Cert.Pre_finite_inputs LibExtReal

variable [Facts]

/-- Under the precondition every entry of the argument is a real number. -/
theorem entries_real (X : FVec Ideal S8192x256 .f32) (h : fn (F := Ideal) X = fun _ => 1#1) (i : S8192x256.Idx) :
    ∃ r : ℝ, X i = r := by
  have h0 := congrFun h ValueIdx.ix0
  dsimp only [fn] at h0
  haveI : Subsingleton S_.Idx := ⟨fun a b => funext fun d => d.elim0⟩
  have hi := Host.reduce_andi_all _ _ _ _ _ h0 i
  have hc : Ideal.cmp .olt (max (X i) (-(X i))) (Ideal.ofBits .f32 0x7F800000#32) = 1#1 := hi
  have hlt : max (X i) (-(X i)) < Ideal.ofBits .f32 0x7F800000#32 := by
    by_contra hn
    simp [Ideal.cmp, hn] at hc
  rw [inf_f32] at hlt
  exact real_of_abs_lt_top _ hlt

end Cert.Pre_finite_inputs.Finite

end
-- ==== Proof.lean ====
/-
  Pairwise cosine similarity of the rows of X : [8192, 256], clamped below at ε (the f32 nearest 10⁻⁶).

  With s(n) = Σ_k X(n,k)² and g(n,m) = Σ_k X(n,k)·X(m,k), the reference forms
      max (g(n,m) / (√s(n) · √s(m))) ε,
  and the kernel, block by block over an 8 × 8 grid of 1024 × 1024 blocks, forms
      max (g(n,m) · (rsqrt s(n) · (1 / √s(m)))) ε,
  where the reciprocal norms 1 / √s(m) are computed once on the host and the inner products by the matrix unit on
  a narrower-format copy of X (the same extended reals).

  On a finite X the two agree (CosineLaw): where both rows are non-zero this is real arithmetic; where a row is zero
  the inner product is zero, the kernel's product is 0 · (…) = 0 and the reference's quotient is 0 / 0, and both
  maxima with ε ≥ 0 are ε.  Finiteness is what the precondition gives (FiniteInputs).

  The kernel's result array as one function of X is KernelValue (over BodyValue: the body's stored value at an
  index, and HostPrefix: the two arrays the host prepares); the reference's is ReferenceValue.  The idealization
  rewrote nothing, so the kernel and its idealization are the same text and `preserves` is trivial.
-/
import proofs.«103013_j23201413333422_2_alg».proof.Defs
import proofs.«103013_j23201413333422_2_alg».proof.Proof.Gen.Kernel
import proofs.«103013_j23201413333422_2_alg».proof.Proof.Gen.Kernel.Skeleton
import proofs.«103013_j23201413333422_2_alg».proof.Proof.Gen.Kernel.Launch
import proofs.«103013_j23201413333422_2_alg».proof.Proof.Gen.Kernel.Points
import proofs.«103013_j23201413333422_2_alg».proof.Proof.Gen.Kernel.Frame
import proofs.«103013_j23201413333422_2_alg».proof.Proof.Gen.KernelIdeal
import proofs.«103013_j23201413333422_2_alg».proof.Proof.Gen.KernelIdeal.Skeleton
import proofs.«103013_j23201413333422_2_alg».proof.Proof.Gen.KernelIdeal.Launch
import proofs.«103013_j23201413333422_2_alg».proof.Proof.Gen.KernelIdeal.Points
import proofs.«103013_j23201413333422_2_alg».proof.Proof.Gen.KernelIdeal.Frame
import proofs.«103013_j23201413333422_2_alg».proof.Proof.Gen.ReferenceIdeal
import proofs.«103013_j23201413333422_2_alg».proof.Proof.Gen.Pre_finite_inputs
import proofs.«103013_j23201413333422_2_alg».proof.Proof.Gen.KernelIdeal.Value
import proofs.«103013_j23201413333422_2_alg».proof.Proof.Gen.ReferenceIdeal.Run
import proofs.«103013_j23201413333422_2_alg».proof.Proof.Gen.ReferenceIdeal.Read
import proofs.«103013_j23201413333422_2_alg».proof.Proof.KernelValue
import proofs.«103013_j23201413333422_2_alg».proof.Proof.ReferenceValue
import proofs.«103013_j23201413333422_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on X, both programs end with the result array at the quotient arrangement of X: the
    kernel's array is the arrangement with two reciprocal norms, equal to it because X is finite; the reference's
    last operation computes it outright. -/
theorem algebraic : Cert.algebraic_KernelIdeal_ReferenceIdeal := by
  intro m ρ m' ρ' hpre hagree
  refine ⟨fun c => CosineSpec.viaQuotient (Cert.KernelIdeal.Whole.arg m c), ?_, ?_⟩
  · refine (θ_run Cert.KernelIdeal.defs _ _).mono (fun _ h c => ⟨(h c).1.trans ?_, (h c).2⟩)
      (Cert.KernelIdeal.Whole.run m ρ)
    exact CosineSpec.viaReciprocals_eq_viaQuotient _ (Cert.Pre_finite_inputs.Finite.entries_real _ (hpre c))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
